-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x16 : Shape := ⟨2, ![131072, 16]⟩
abbrev S1024x16 : Shape := ⟨2, ![1024, 16]⟩
abbrev S1024x1 : Shape := ⟨2, ![1024, 1]⟩
abbrev S16 : Shape := ⟨1, ![16]⟩
abbrev S_ : Shape := ⟨0, ![]⟩
abbrev S1x16 : Shape := ⟨2, ![1, 16]⟩

class Facts : Prop where
  bcast_S_S131072x16 : S_.BroadcastsInDim S131072x16 (![] : Fin 0 → Fin S131072x16.rank)
  reducesTo_S131072x16_S_d0_1 : S131072x16.ReducesTo [0, 1] S_
  h_S_ : 0 < S_.numel
  bcast_S_S1024x16 : S_.BroadcastsInDim S1024x16 (![] : Fin 0 → Fin S1024x16.rank)
  reducesTo_S1024x16_S_d0_1 : S1024x16.ReducesTo [0, 1] S_
  bcast_S_S1024x1 : S_.BroadcastsInDim S1024x1 (![] : Fin 0 → Fin S1024x1.rank)
  reducesTo_S1024x1_S_d0_1 : S1024x1.ReducesTo [0, 1] S_
  bcast_S_S16 : S_.BroadcastsInDim S16 (![] : Fin 0 → Fin S16.rank)
  reducesTo_S16_S_d0 : S16.ReducesTo [0] S_
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)

variable [Facts]

def fn_part2 {F : FTy → Type} [FloatOps F] (main_arg1 : FVec F S1024x16 .f32) (main_v28 : IVec S_ 1) (main_v33 : FVec F S1024x16 .f32) (main_v35 : FVec F S1024x16 .f32) : IVec S_ 1 :=
  let main_v36 : FVec F S1024x16 .f32 := mulf main_arg1 main_v35
  let main_v37 : FVec F S1024x16 .f32 := mulf main_v36 main_v36
  let main_v38 : FVec F S1024x16 .f32 := addf main_v33 main_v37
  let main_cst_10 : FVec F S_ .f32 := constant S_ .f32 0x00000000#32
  let main_v39 : FVec F S1024x16 .f32 := broadcastInDim S1024x16 ![] bcast_S_S1024x16 main_cst_10
  let main_v40 : IVec S1024x16 1 := cmpf .ogt main_v38 main_v39
  let main_c_11 : IVec S_ 1 := constantI S_ 1 1#1
  let main_v41 : IVec S_ 1 := (fun x v => Host.reduce IntOp.andi x v reducesTo_S1024x16_S_d0_1 h_S_) main_v40 main_c_11
  let main_v42 : IVec S_ 1 := andi main_v28 main_v41
  main_v42

def fn_part1 {F : FTy → Type} [FloatOps F] (main_arg1 : FVec F S1024x16 .f32) (main_arg2 : FVec F S1024x16 .f32) (main_arg4 : FVec F S16 .f32) (main_arg5 : FVec F S16 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S1024x16 .f32 := mulf main_arg2 main_arg2
  let main_v30 : FVec F S1x16 .f32 := broadcastInDim S1x16 ![1] bcast_S16_S1x16_1 main_arg4
  let main_v31 : FVec F S1x16 .f32 := mulf main_v30 main_v30
  let main_v32 : FVec F S1024x16 .f32 := broadcastInDim S1024x16 ![0, 1] bcast_S1x16_S1024x16_0_1 main_v31
  let main_v33 : FVec F S1024x16 .f32 := addf main_v29 main_v32
  let main_v34 : FVec F S1x16 .f32 := broadcastInDim S1x16 ![1] bcast_S16_S1x16_1 main_arg5
  let main_v35 : FVec F S1024x16 .f32 := broadcastInDim S1024x16 ![0, 1] bcast_S1x16_S1024x16_0_1 main_v34
  fn_part2 (F := F) main_arg1 main_v28 main_v33 main_v35

def fn {F : FTy → Type} [FloatOps F] (main_arg0 : FVec F S131072x16 .f32) (main_arg1 : FVec F S1024x16 .f32) (main_arg2 : FVec F S1024x16 .f32) (main_arg3 : FVec F S1024x1 .f32) (main_arg4 : FVec F S16 .f32) (main_arg5 : FVec F S16 .f32) : IVec S_ 1 :=
  let main_v0 : FVec F S131072x16 .f32 := Host.absf main_arg0
  let main_cst : FVec F S_ .f32 := constant S_ .f32 0x7F800000#32
  let main_v1 : FVec F S131072x16 .f32 := broadcastInDim S131072x16 ![] bcast_S_S131072x16 main_cst
  let main_v2 : IVec S131072x16 1 := cmpf .olt main_v0 main_v1
  let main_c : IVec S_ 1 := constantI S_ 1 1#1
  let main_v3 : IVec S_ 1 := (fun x v => Host.reduce IntOp.andi x v reducesTo_S131072x16_S_d0_1 h_S_) main_v2 main_c
  let main_v4 : FVec F S1024x16 .f32 := Host.absf main_arg1
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  let main_v9 : FVec F S1024x16 .f32 := Host.absf main_arg2
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg1 main_arg2 main_arg4 main_arg5 main_v13 main_v16
-- ==== Kernel.lean ====
abbrev S131072x16 : Shape := ⟨2, ![131072, 16]⟩
abbrev S1024x16 : Shape := ⟨2, ![1024, 16]⟩
abbrev S1024x1 : Shape := ⟨2, ![1024, 1]⟩
abbrev S16 : Shape := ⟨1, ![16]⟩
abbrev S1x16 : Shape := ⟨2, ![1, 16]⟩
abbrev S_ : Shape := ⟨0, ![]⟩
abbrev S1024 : Shape := ⟨1, ![1024]⟩
abbrev S16x1024 : Shape := ⟨2, ![16, 1024]⟩
abbrev S32x1024 : Shape := ⟨2, ![32, 1024]⟩
abbrev S1x1024 : Shape := ⟨2, ![1, 1024]⟩
abbrev S1024x2 : Shape := ⟨2, ![1024, 2]⟩
abbrev S131072x1 : Shape := ⟨2, ![131072, 1]⟩
abbrev S2048x16 : Shape := ⟨2, ![2048, 16]⟩
abbrev S2048x1 : Shape := ⟨2, ![2048, 1]⟩
abbrev S2048x32 : Shape := ⟨2, ![2048, 32]⟩
abbrev S2048x1024 : Shape := ⟨2, ![2048, 1024]⟩
abbrev S2048x2 : Shape := ⟨2, ![2048, 2]⟩

abbrev nBuf : Space → Nat
  | .hbm => 43
  | .vmem => 8
  | .smem => 0
  | _ => 0

abbrev bufTy : (tb : Table) → Fin (tcTables nBuf tb) → BufTy
  | .hbm, ⟨0, _⟩ => ⟨S131072x16, .f32⟩
  | .hbm, ⟨1, _⟩ => ⟨S1024x16, .f32⟩
  | .hbm, ⟨2, _⟩ => ⟨S1024x16, .f32⟩
  | .hbm, ⟨3, _⟩ => ⟨S1024x1, .f32⟩
  | .hbm, ⟨4, _⟩ => ⟨S16, .f32⟩
  | .hbm, ⟨5, _⟩ => ⟨S16, .f32⟩
  | .hbm, ⟨6, _⟩ => ⟨S1024x16, .f32⟩
  | .hbm, ⟨7, _⟩ => ⟨S1x16, .f32⟩
  | .hbm, ⟨8, _⟩ => ⟨S1x16, .f32⟩
  | .hbm, ⟨9, _⟩ => ⟨S1024x16, .f32⟩
  | .hbm, ⟨10, _⟩ => ⟨S1024x16, .f32⟩
  | .hbm, ⟨11, _⟩ => ⟨S1x16, .f32⟩
  | .hbm, ⟨12, _⟩ => ⟨S1024x16, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024x16, .f32⟩
  | .hbm, ⟨24, _⟩ => ⟨S1024x16, .f32⟩
  | .hbm, ⟨25, _⟩ => ⟨S1024x16, .f32⟩
  | .hbm, ⟨26, _⟩ => ⟨S1024x16, .f32⟩
  | .hbm, ⟨27, _⟩ => ⟨S1024x16, .f32⟩
  | .hbm, ⟨28, _⟩ => ⟨S_, .f32⟩
  | .hbm, ⟨29, _⟩ => ⟨S1024, .f32⟩
  | .hbm, ⟨30, _⟩ => ⟨S16x1024, .f32⟩
  | .hbm, ⟨31, _⟩ => ⟨S_, .f32⟩
  | .hbm, ⟨32, _⟩ => ⟨S1024x16, .f32⟩
  | .hbm, ⟨33, _⟩ => ⟨S1024x16, .f32⟩
  | .hbm, ⟨34, _⟩ => ⟨S16x1024, .f32⟩
  | .hbm, ⟨35, _⟩ => ⟨S32x1024, .f32⟩
  | .hbm, ⟨36, _⟩ => ⟨S32x1024, .bf16⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1024x1, .f32⟩
  | .hbm, ⟨41, _⟩ => ⟨S1024x2, .f32⟩
  | .hbm, ⟨42, _⟩ => ⟨S131072x1, .f32⟩
  | .local _ .vmem, ⟨0, _⟩ => ⟨S2048x16, .f32⟩
  | .local _ .vmem, ⟨1, _⟩ => ⟨S2048x16, .f32⟩
  | .local _ .vmem, ⟨2, _⟩ => ⟨S32x1024, .bf16⟩
  | .local _ .vmem, ⟨3, _⟩ => ⟨S1x1024, .f32⟩
  | .local _ .vmem, ⟨4, _⟩ => ⟨S1x1024, .f32⟩
  | .local _ .vmem, ⟨5, _⟩ => ⟨S1024x2, .f32⟩
  | .local _ .vmem, ⟨6, _⟩ => ⟨S2048x1, .f32⟩
  | .local _ .vmem, ⟨7, _⟩ => ⟨S2048x1, .f32⟩
  | _, _ => ⟨S131072x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S_S1024x16 : S_.BroadcastsInDim S1024x16 (![] : Fin 0 → Fin S1024x16.rank)
  transposes_S1024x16_S16x1024_1_0 : S1024x16.Transposes [1, 0] S16x1024
  concatenates_S16x1024_S16x1024_S32x1024_d0 : Shape.Concatenates [S16x1024, S16x1024] S32x1024 0
  bitsLt_bf16_f32 : FTy.bits .bf16 < FTy.bits .f32
  shapeCasts_S1024_S1x1024 : S1024.ShapeCasts S1x1024
  bcast_S_S1024x1 : S_.BroadcastsInDim S1024x1 (![] : Fin 0 → Fin S1024x1.rank)
  concatenates_S1024x1_S1024x1_S1024x2_d1 : Shape.Concatenates [S1024x1, S1024x1] S1024x2 1
  inb_S2048x16_S2048x16_0_0 : ∀ a, (![0, 0] : Fin 2 → Nat) a + S2048x16.size a ≤ S2048x16.size a
  h_S2048x16 : 0 < S2048x16.numel
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  concatenates_S2048x16_S2048x16_S2048x32_d1 : Shape.Concatenates [S2048x16, S2048x16] S2048x32 1
  broadcasts_S1x1024_S2048x1024 : S1x1024.Broadcasts S2048x1024
  slices_S2048x2_o0_0_S2048x1 : S2048x2.Slices ![0, 0] S2048x1
  slices_S2048x2_o0_1_S2048x1 : S2048x2.Slices ![0, 1] S2048x1
  inb_S2048x1_S2048x1_0_0 : ∀ a, (![0, 0] : Fin 2 → Nat) a + S2048x1.size a ≤ S2048x1.size a
  h_S2048x1 : 0 < S2048x1.numel
  dot_S2048x32_S32x1024_S2048x1024_1_0_0_1_n_n_wf : DotDims.WF S2048x32 S32x1024 S2048x1024 [1] [0] [0] [1] [] []
  dot_S2048x1024_S1024x2_S2048x2_1_0_0_1_n_n_wf : DotDims.WF S2048x1024 S1024x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S131072x16.size a
  hwx0_0 : ∀ i : grid0.Coords, EltTy.bits .f32 = 32 ∨ (Rect.block (s := S131072x16) S2048x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S32x1024.size a
  hwx0_1 : ∀ i : grid0.Coords, EltTy.bits .bf16 = 32 ∨ (Rect.block (s := S32x1024) S32x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2.size a ≤ S1024x2.size a
  hwx0_4 : ∀ i : grid0.Coords, EltTy.bits .f32 = 32 ∨ (Rect.block (s := S1024x2) S1024x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1.size a ≤ S131072x1.size a
  hwx0_5 : ∀ i : grid0.Coords, EltTy.bits .f32 = 32 ∨ (Rect.block (s := S131072x1) S2048x1.size (cc0_transform_5 i) (hinb0_5 i)).WholeWords (EltTy.packing .f32)

variable [Facts₀]

def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf
def dot_S2048x1024_S1024x2_S2048x2_1_0_0_1_n_n : DotDims S2048x1024 S1024x2 S2048x2 where
  lhsContracting := [1]
  rhsContracting := [0]
  lhsNonContracting := [0]
  rhsNonContracting := [1]
  lhsBatch := []
  rhsBatch := []
  wf := dot_S2048x1024_S1024x2_S2048x2_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S32x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S1024x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S2048x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S131072x16 : Shape := ⟨2, ![131072, 16]⟩
abbrev S1024x16 : Shape := ⟨2, ![1024, 16]⟩
abbrev S1024x1 : Shape := ⟨2, ![1024, 1]⟩
abbrev S16 : Shape := ⟨1, ![16]⟩
abbrev S1x16 : Shape := ⟨2, ![1, 16]⟩
abbrev S_ : Shape := ⟨0, ![]⟩
abbrev S1024 : Shape := ⟨1, ![1024]⟩
abbrev S16x1024 : Shape := ⟨2, ![16, 1024]⟩
abbrev S131072x1024 : Shape := ⟨2, ![131072, 1024]⟩
abbrev S1x1024 : Shape := ⟨2, ![1, 1024]⟩
abbrev S131072 : Shape := ⟨1, ![131072]⟩
abbrev S131072x1 : Shape := ⟨2, ![131072, 1]⟩

abbrev nBuf : Space → Nat
  | .hbm => 54
  | .vmem => 0
  | .smem => 0
  | _ => 0

abbrev bufTy : (tb : Table) → Fin (tcTables nBuf tb) → BufTy
  | .hbm, ⟨0, _⟩ => ⟨S131072x16, .f32⟩
  | .hbm, ⟨1, _⟩ => ⟨S1024x16, .f32⟩
  | .hbm, ⟨2, _⟩ => ⟨S1024x16, .f32⟩
  | .hbm, ⟨3, _⟩ => ⟨S1024x1, .f32⟩
  | .hbm, ⟨4, _⟩ => ⟨S16, .f32⟩
  | .hbm, ⟨5, _⟩ => ⟨S16, .f32⟩
  | .hbm, ⟨6, _⟩ => ⟨S1024x16, .f32⟩
  | .hbm, ⟨7, _⟩ => ⟨S1x16, .f32⟩
  | .hbm, ⟨8, _⟩ => ⟨S1x16, .f32⟩
  | .hbm, ⟨9, _⟩ => ⟨S1024x16, .f32⟩
  | .hbm, ⟨10, _⟩ => ⟨S1024x16, .f32⟩
  | .hbm, ⟨11, _⟩ => ⟨S1x16, .f32⟩
  | .hbm, ⟨12, _⟩ => ⟨S1024x16, .f32⟩
  | .hbm, ⟨13, _⟩ => ⟨S1024x16, .f32⟩
  | .hbm, ⟨14, _⟩ => ⟨S1024x16, .f32⟩
  | .hbm, ⟨15, _⟩ => ⟨S1024x16, .f32⟩
  | .hbm, ⟨16, _⟩ => ⟨S_, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024x16, .f32⟩
  | .hbm, ⟨24, _⟩ => ⟨S1024x16, .f32⟩
  | .hbm, ⟨25, _⟩ => ⟨S131072x16, .f32⟩
  | .hbm, ⟨26, _⟩ => ⟨S16x1024, .f32⟩
  | .hbm, ⟨27, _⟩ => ⟨S131072x1024, .f32⟩
  | .hbm, ⟨28, _⟩ => ⟨S1024x16, .f32⟩
  | .hbm, ⟨29, _⟩ => ⟨S16x1024, .f32⟩
  | .hbm, ⟨30, _⟩ => ⟨S131072x1024, .f32⟩
  | .hbm, ⟨31, _⟩ => ⟨S1024x16, .f32⟩
  | .hbm, ⟨32, _⟩ => ⟨S1024x16, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S131072x1024, .f32⟩
  | .hbm, ⟨37, _⟩ => ⟨S131072x1024, .f32⟩
  | .hbm, ⟨38, _⟩ => ⟨S131072x1024, .f32⟩
  | .hbm, ⟨39, _⟩ => ⟨S1x1024, .f32⟩
  | .hbm, ⟨40, _⟩ => ⟨S131072x1024, .f32⟩
  | .hbm, ⟨41, _⟩ => ⟨S131072x1024, .f32⟩
  | .hbm, ⟨42, _⟩ => ⟨S_, .f32⟩
  | .hbm, ⟨43, _⟩ => ⟨S131072x1024, .f32⟩
  | .hbm, ⟨44, _⟩ => ⟨S131072x1024, .f32⟩
  | .hbm, ⟨45, _⟩ => ⟨S1x1024, .f32⟩
  | .hbm, ⟨46, _⟩ => ⟨S131072x1024, .f32⟩
  | .hbm, ⟨47, _⟩ => ⟨S131072x1024, .f32⟩
  | .hbm, ⟨48, _⟩ => ⟨S131072x1024, .f32⟩
  | .hbm, ⟨49, _⟩ => ⟨S_, .f32⟩
  | .hbm, ⟨50, _⟩ => ⟨S131072, .f32⟩
  | .hbm, ⟨51, _⟩ => ⟨S131072x1, .f32⟩
  | .hbm, ⟨52, _⟩ => ⟨S131072x1, .f32⟩
  | .hbm, ⟨53, _⟩ => ⟨S131072x1, .f32⟩
  | _, _ => ⟨S131072x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S1024x16_0_1 : S1x16.BroadcastsInDim S1024x16 (![0, 1] : Fin 2 → Fin S1024x16.rank)
  reducesTo_S1024x16_S1024_d1 : S1024x16.ReducesTo [1] S1024
  h_S_ : 0 < S_.numel
  bcast_S_S1024 : S_.BroadcastsInDim S1024 (![] : Fin 0 → Fin S1024.rank)
  bcast_S_S1024x16 : S_.BroadcastsInDim S1024x16 (![] : Fin 0 → Fin S1024x16.rank)
  transposes_S1024x16_S16x1024_1_0 : S1024x16.Transposes [1, 0] S16x1024
  bcast_S_S131072x1024 : S_.BroadcastsInDim S131072x1024 (![] : Fin 0 → Fin S131072x1024.rank)
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  reducesTo_S131072x1024_S131072_d1 : S131072x1024.ReducesTo [1] S131072
  bcast_S131072_S131072x1_0 : S131072.BroadcastsInDim S131072x1 (![0] : Fin 1 → Fin S131072x1.rank)
  dot_S131072x16_S16x1024_S131072x1024_1_0_0_1_n_n_wf : DotDims.WF S131072x16 S16x1024 S131072x1024 [1] [0] [0] [1] [] []
  dot_S131072x1024_S1024x1_S131072x1_1_0_0_1_n_n_wf : DotDims.WF S131072x1024 S1024x1 S131072x1 [1] [0] [0] [1] [] []

variable [Facts₀]

def dot_S131072x16_S16x1024_S131072x1024_1_0_0_1_n_n : DotDims S131072x16 S16x1024 S131072x1024 where
  lhsContracting := [1]
  rhsContracting := [0]
  lhsNonContracting := [0]
  rhsNonContracting := [1]
  lhsBatch := []
  rhsBatch := []
  wf := dot_S131072x16_S16x1024_S131072x1024_1_0_0_1_n_n_wf
def dot_S131072x1024_S1024x1_S131072x1_1_0_0_1_n_n : DotDims S131072x1024 S1024x1 S131072x1 where
  lhsContracting := [1]
  rhsContracting := [0]
  lhsNonContracting := [0]
  rhsNonContracting := [1]
  lhsBatch := []
  rhsBatch := []
  wf := dot_S131072x1024_S1024x1_S131072x1_1_0_0_1_n_n_wf

class Facts : Prop extends Facts₀ where

variable [Facts]
-- ==== Proof.Mixture.lean ====
/-
  THE SPECIFICATION. A normalised mixture of 1024 Gaussian bumps evaluated at 131072 samples of 16 features:
  for sample `n` and centre `m`, with `v` the reciprocal variances, `g` the bumps' prefactors, `q m = Σₖ cₖ² vₖ`
  the centre's own squared term and `w` the mixing coefficients,

      dist n m   = Σₖ xₖ² vₖ  -  2 · Σₖ xₖ (cₖ vₖ)                 (the squared distance less `q m`)
      weight n m = g m · exp (-½ · (dist n m + q m))
      G n        = (Σₘ weight n m · w m) / (Σₘ weight n m)

  as one function of the arrays, index by index, on the extended reals. The arrays `v`, `g`, `q` are computed from
  the widths, centres and resolutions by the same host operations in both programs, so they stay abstract here.
-/
import Idealize.ShloMosaic.PureOps.Ideal
import Idealize.ShloMosaic.Lib.ValueIdx

noncomputable section

open scoped BigOperators

namespace Cert.Mixture

open Idealize.ShloMosaic Idealize.ShloMosaic.ValueIdx

/-- The samples' shape, the centres' (and variances'), a per-centre vector's, the coefficients' and the result's. -/
abbrev SX : Shape := ⟨2, ![131072, 16]⟩
abbrev SC : Shape := ⟨2, ![1024, 16]⟩
abbrev SM : Shape := ⟨1, ![1024]⟩
abbrev SW : Shape := ⟨2, ![1024, 1]⟩
abbrev SO : Shape := ⟨2, ![131072, 1]⟩

/-- The literal `-0.5` (the same word in both programs: never evaluated) and the reference's `2.0`. -/
abbrev minusHalf : EReal := Ideal.ofBits .f32 0xBF000000#32
abbrev twoLit : EReal := Ideal.ofBits .f32 0x40000000#32

/-- Σₖ xₖ² vₖ for sample `n` and centre `m`. -/
def sq (x : SX.Idx → EReal) (v : SC.Idx → EReal) (n : Fin 131072) (m : Fin 1024) : EReal :=
  ∑ k : Fin 16, (x (ix2 n k) * x (ix2 n k)) * v (ix2 m k)

/-- Σₖ xₖ (cₖ vₖ). -/
def cross (x : SX.Idx → EReal) (c v : SC.Idx → EReal) (n : Fin 131072) (m : Fin 1024) : EReal :=
  ∑ k : Fin 16, x (ix2 n k) * (c (ix2 m k) * v (ix2 m k))

/-- The expanded squared distance, less the centre's own term: as the reference spells it. -/
def dist (x : SX.Idx → EReal) (c v : SC.Idx → EReal) (n : Fin 131072) (m : Fin 1024) : EReal :=
  sq x v n m - twoLit * cross x c v n m

/-- One bump: prefactor `g`, the centre's own term `q`, the rest of the squared distance `d`. -/
def weight (g q d : EReal) : EReal := g * Ideal.exp (minusHalf * (d + q))

/-- The weighted mean of the coefficients. -/
def mixture (K w : Fin 1024 → EReal) : EReal := Ideal.div (∑ m, K m * w m) (∑ m, K m)

/-- The result array. -/
def G (x : SX.Idx → EReal) (c v : SC.Idx → EReal) (g q : SM.Idx → EReal) (w : SW.Idx → EReal) : SO.Idx → EReal :=
  fun i => mixture (fun m => weight (g (ix1 m)) (q (ix1 m)) (dist x c v (i 0) m)) (fun m => w (ix2 m (i 1)))

end Cert.Mixture

end
-- ==== Proof.ReferenceReading.lean ====
/-
  THE REFERENCE IS THE SPECIFICATION. Its last stage, read index by index through the generated one-operation
  lemmas, is `Mixture.G` of the samples, the centres, the coefficients and three of its own earlier stages: the
  reciprocal variances (stage 15), the prefactors (stage 13) and the centres' squared terms (stage 24). The two
  matrix products are sums over the 16 features, the normaliser a sum over the 1024 centres onto a zero.
-/
import proofs.«103769_j67473936220763_2_alg».proof.Proof.Gen.ReferenceIdeal.Read
import proofs.«103769_j67473936220763_2_alg».proof.Proof.Mixture

noncomputable section

open scoped BigOperators

namespace Cert.Mixture.Reference

open Idealize.ShloMosaic Idealize.ShloMosaic.ValueIdx Cert.ReferenceIdeal Cert.ReferenceIdeal.Read

/-! ## The generated index maps at an index given by coordinates -/

theorem l39 (n : Fin 131072) (z : Fin 1) (k : Fin 1024) : lidx_main_v39 (ix2 n z) k = ix2 n k :=
  funext fun a => Fin.ext (by match a with | ⟨0, _⟩ => rfl | ⟨1, _⟩ => rfl)
theorem r39 (n : Fin 131072) (z : Fin 1) (k : Fin 1024) : ridx_main_v39 (ix2 n z) k = ix2 k z :=
  funext fun a => Fin.ext (by match a with | ⟨0, _⟩ => rfl | ⟨1, _⟩ => rfl)
theorem i38 (n : Fin 131072) (z : Fin 1) : idx_main_v38 (ix2 n z) = ix1 n :=
  funext fun a => Fin.ext (by match a with | ⟨0, _⟩ => rfl)
theorem i37 (n : Fin 131072) (k : Fin 1024) : idx_main_v37 (ix1 n) k = ix2 n k :=
  funext fun a => Fin.ext (by match a with | ⟨0, _⟩ => rfl | ⟨1, _⟩ => rfl)
theorem i35 (n : Fin 131072) (m : Fin 1024) : idx_main_v35 (ix2 n m) = ix2 (0 : Fin 1) m :=
  funext fun a => Fin.ext (by match a with | ⟨0, _⟩ => rfl | ⟨1, _⟩ => rfl)
theorem i33 (m : Fin 1024) : idx_main_v33 (ix2 (0 : Fin 1) m) = ix1 m :=
  funext fun a => Fin.ext (by match a with | ⟨0, _⟩ => rfl)
theorem i29 (n : Fin 131072) (m : Fin 1024) : idx_main_v29 (ix2 n m) = ix2 (0 : Fin 1) m :=
  funext fun a => Fin.ext (by match a with | ⟨0, _⟩ => rfl | ⟨1, _⟩ => rfl)
theorem i28 (m : Fin 1024) : idx_main_v28 (ix2 (0 : Fin 1) m) = ix1 m :=
  funext fun a => Fin.ext (by match a with | ⟨0, _⟩ => rfl)
theorem l21 (n : Fin 131072) (m : Fin 1024) (k : Fin 16) : lidx_main_v21 (ix2 n m) k = ix2 n k :=
  funext fun a => Fin.ext (by match a with | ⟨0, _⟩ => rfl | ⟨1, _⟩ => rfl)
theorem r21 (n : Fin 131072) (m : Fin 1024) (k : Fin 16) : ridx_main_v21 (ix2 n m) k = ix2 k m :=
  funext fun a => Fin.ext (by match a with | ⟨0, _⟩ => rfl | ⟨1, _⟩ => rfl)
theorem i20 (k : Fin 16) (m : Fin 1024) : idx_main_v20 (ix2 k m) = ix2 m k :=
  funext fun a => Fin.ext (by match a with | ⟨0, _⟩ => rfl | ⟨1, _⟩ => rfl)
theorem l18 (n : Fin 131072) (m : Fin 1024) (k : Fin 16) : lidx_main_v18 (ix2 n m) k = ix2 n k :=
  funext fun a => Fin.ext (by match a with | ⟨0, _⟩ => rfl | ⟨1, _⟩ => rfl)
theorem r18 (n : Fin 131072) (m : Fin 1024) (k : Fin 16) : ridx_main_v18 (ix2 n m) k = ix2 k m :=
  funext fun a => Fin.ext (by match a with | ⟨0, _⟩ => rfl | ⟨1, _⟩ => rfl)
theorem i17 (k : Fin 16) (m : Fin 1024) : idx_main_v17 (ix2 k m) = ix2 m k :=
  funext fun a => Fin.ext (by match a with | ⟨0, _⟩ => rfl | ⟨1, _⟩ => rfl)

/-! ## The last stage is the specification -/

theorem result_eq (x0 : (⟨S131072x16, .f32⟩ : BufTy).Contents (Elt Ideal)) (x1 x2 : (⟨S1024x16, .f32⟩ : BufTy).Contents (Elt Ideal))
    (x3 : (⟨S1024x1, .f32⟩ : BufTy).Contents (Elt Ideal)) (x4 x5 : (⟨S16, .f32⟩ : BufTy).Contents (Elt Ideal)) :
    val_main_v40 (F := Ideal) x0 x1 x2 x3 x4 x5
      = G x0 x1 (val_main_v15 (F := Ideal) x1 x2 x4 x5) (val_main_v13 (F := Ideal) x1 x2 x4 x5)
          (val_main_v24 (F := Ideal) x1 x2 x4 x5) x3 := by
  funext i
  obtain ⟨n, z, rfl⟩ : ∃ (n : Fin 131072) (z : Fin 1), i = ix2 n z := ⟨i 0, i 1, eq_ix2 i⟩
  rw [val_main_v40_apply, val_main_v39_apply, val_main_v38_apply, val_main_v37_apply, val_main_cst_5_apply]
  simp only [l39, r39, i38, i37, val_main_v36_apply, val_main_v35_apply, val_main_v34_apply, val_main_v33_apply,
    val_main_v32_apply, val_main_v31_apply, val_main_cst_4_apply, val_main_v30_apply, val_main_v29_apply,
    val_main_v28_apply, val_main_v27_apply, val_main_v26_apply, val_main_v25_apply, val_main_cst_3_apply,
    val_main_v21_apply, val_main_v20_apply, val_main_v19_apply, val_main_v18_apply, val_main_v17_apply,
    val_main_v16_apply, i35, i33, i29, i28, l21, r21, i20, l18, r18, i17,
    Ideal.hostDivf_def, Ideal.mulf_def, Ideal.addf_def, Ideal.subf_def, Ideal.hostUnary_exp_def, Ideal.ofBits_def,
    Ideal.ofBits_zero_f32, zero_add]
  rfl

end Cert.Mixture.Reference

end
-- ==== Proof.BodyReading.lean ====
/-
  THE KERNEL BODY AT A ROW. One grid point holds 2048 samples. Its one store, read at row `p`, is a quotient of two
  sums over the 1024 centres — the numerator against the coefficient column, the denominator against the column of
  ones beside it — of the bumps  g m · exp (-½ · (f p m + q m)),  where  f p m  is ONE contraction of length 32: the
  row  [x², x]  against the column  [v ; -2 c v]  of the prepared matrix. Splitting that contraction at 16 gives the
  squared sum and the cross sum with the factor -2 inside.
-/
import proofs.«103769_j67473936220763_2_alg».proof.Proof.Gen.KernelIdeal.Skeleton
import proofs.«103769_j67473936220763_2_alg».proof.Proof.Mixture
import Idealize.ShloMosaic.Lib.Pipeline.Value
import Idealize.ShloMosaic.Lib.ValueIdx
import Idealize.ShloMosaic.PureOps.Ideal.Laws

noncomputable section

open scoped BigOperators

namespace Cert.Mixture.Body

open Idealize.ShloMosaic Idealize.ShloMosaic.ValueIdx Cert.KernelIdeal Cert.KernelIdeal.Gen

/-! ## The two matrix products as sums over their one contracted axis -/

theorem lhsA_0 (i : S2048x1024.Idx) (q : dot_S2048x32_S32x1024_S2048x1024_1_0_0_1_n_n.contr.Idx) :
    (dot_S2048x32_S32x1024_S2048x1024_1_0_0_1_n_n.lhsIdx i q 0).val = (i 0).val := by
  unfold DotDims.lhsIdx
  rw [dif_neg (show ¬(0 : Fin S2048x32.rank) ∈ dot_S2048x32_S32x1024_S2048x1024_1_0_0_1_n_n.lhsBatch by decide), dif_pos (show (0 : Fin S2048x32.rank) ∈ dot_S2048x32_S32x1024_S2048x1024_1_0_0_1_n_n.lhsNonContracting by decide)]
  rfl
theorem rhsA_1 (i : S2048x1024.Idx) (q : dot_S2048x32_S32x1024_S2048x1024_1_0_0_1_n_n.contr.Idx) :
    (dot_S2048x32_S32x1024_S2048x1024_1_0_0_1_n_n.rhsIdx i q 1).val = (i 1).val := by
  unfold DotDims.rhsIdx
  rw [dif_neg (show ¬(1 : Fin S32x1024.rank) ∈ dot_S2048x32_S32x1024_S2048x1024_1_0_0_1_n_n.rhsBatch by decide), dif_pos (show (1 : Fin S32x1024.rank) ∈ dot_S2048x32_S32x1024_S2048x1024_1_0_0_1_n_n.rhsNonContracting by decide)]
  rfl

/-- The first product at row `p`, centre `m`: the sum over the 32 stacked features. -/
theorem productA_apply (a : FVec Ideal S2048x32 .bf16) (b : FVec Ideal S32x1024 .bf16) (p : Fin 2048) (m : Fin 1024) :
    matmul dot_S2048x32_S32x1024_S2048x1024_1_0_0_1_n_n none a b (constant (F := Ideal) S2048x1024 .f32 0x00000000#32) (ix2 p m)
      = ∑ j : Fin 32, a (ix2 p j) * b (ix2 j m) := by
  simp only [matmul]
  rw [Ideal.matmul_constant_zero_apply, ← Equiv.sum_comp (contrEquiv1 dot_S2048x32_S32x1024_S2048x1024_1_0_0_1_n_n 32 rfl rfl).symm]
  refine Finset.sum_congr rfl fun k _ => ?_
  have hk := contrEquiv1_symm_val dot_S2048x32_S32x1024_S2048x1024_1_0_0_1_n_n 32 rfl rfl k
  have el : dot_S2048x32_S32x1024_S2048x1024_1_0_0_1_n_n.lhsIdx (ix2 p m) ((contrEquiv1 dot_S2048x32_S32x1024_S2048x1024_1_0_0_1_n_n 32 rfl rfl).symm k) = ix2 p k := funext fun a => Fin.ext (by
    match a with
    | ⟨0, _⟩ => exact lhsA_0 _ _
    | ⟨1, _⟩ => exact (dot_S2048x32_S32x1024_S2048x1024_1_0_0_1_n_n.lhsIdx_val_of_single rfl _ _).trans hk)
  have er : dot_S2048x32_S32x1024_S2048x1024_1_0_0_1_n_n.rhsIdx (ix2 p m) ((contrEquiv1 dot_S2048x32_S32x1024_S2048x1024_1_0_0_1_n_n 32 rfl rfl).symm k) = ix2 k m := funext fun a => Fin.ext (by
    match a with
    | ⟨0, _⟩ => exact (dot_S2048x32_S32x1024_S2048x1024_1_0_0_1_n_n.rhsIdx_val_of_single rfl _ _).trans hk
    | ⟨1, _⟩ => exact rhsA_1 _ _)
  rw [el, er]

theorem lhsB_0 (i : S2048x2.Idx) (q : dot_S2048x1024_S1024x2_S2048x2_1_0_0_1_n_n.contr.Idx) :
    (dot_S2048x1024_S1024x2_S2048x2_1_0_0_1_n_n.lhsIdx i q 0).val = (i 0).val := by
  unfold DotDims.lhsIdx
  rw [dif_neg (show ¬(0 : Fin S2048x1024.rank) ∈ dot_S2048x1024_S1024x2_S2048x2_1_0_0_1_n_n.lhsBatch by decide), dif_pos (show (0 : Fin S2048x1024.rank) ∈ dot_S2048x1024_S1024x2_S2048x2_1_0_0_1_n_n.lhsNonContracting by decide)]
  rfl
theorem rhsB_1 (i : S2048x2.Idx) (q : dot_S2048x1024_S1024x2_S2048x2_1_0_0_1_n_n.contr.Idx) :
    (dot_S2048x1024_S1024x2_S2048x2_1_0_0_1_n_n.rhsIdx i q 1).val = (i 1).val := by
  unfold DotDims.rhsIdx
  rw [dif_neg (show ¬(1 : Fin S1024x2.rank) ∈ dot_S2048x1024_S1024x2_S2048x2_1_0_0_1_n_n.rhsBatch by decide), dif_pos (show (1 : Fin S1024x2.rank) ∈ dot_S2048x1024_S1024x2_S2048x2_1_0_0_1_n_n.rhsNonContracting by decide)]
  rfl

/-- The second product at row `p`, column `e`: the sum over the 1024 centres. -/
theorem productB_apply (a : FVec Ideal S2048x1024 .f32) (b : FVec Ideal S1024x2 .f32) (p : Fin 2048) (e : Fin 2) :
    matmul dot_S2048x1024_S1024x2_S2048x2_1_0_0_1_n_n none a b (constant (F := Ideal) S2048x2 .f32 0x00000000#32) (ix2 p e)
      = ∑ m : Fin 1024, a (ix2 p m) * b (ix2 m e) := by
  simp only [matmul]
  rw [Ideal.matmul_constant_zero_apply, ← Equiv.sum_comp (contrEquiv1 dot_S2048x1024_S1024x2_S2048x2_1_0_0_1_n_n 1024 rfl rfl).symm]
  refine Finset.sum_congr rfl fun k _ => ?_
  have hk := contrEquiv1_symm_val dot_S2048x1024_S1024x2_S2048x2_1_0_0_1_n_n 1024 rfl rfl k
  have el : dot_S2048x1024_S1024x2_S2048x2_1_0_0_1_n_n.lhsIdx (ix2 p e) ((contrEquiv1 dot_S2048x1024_S1024x2_S2048x2_1_0_0_1_n_n 1024 rfl rfl).symm k) = ix2 p k := funext fun a => Fin.ext (by
    match a with
    | ⟨0, _⟩ => exact lhsB_0 _ _
    | ⟨1, _⟩ => exact (dot_S2048x1024_S1024x2_S2048x2_1_0_0_1_n_n.lhsIdx_val_of_single rfl _ _).trans hk)
  have er : dot_S2048x1024_S1024x2_S2048x2_1_0_0_1_n_n.rhsIdx (ix2 p e) ((contrEquiv1 dot_S2048x1024_S1024x2_S2048x2_1_0_0_1_n_n 1024 rfl rfl).symm k) = ix2 k e := funext fun a => Fin.ext (by
    match a with
    | ⟨0, _⟩ => exact (dot_S2048x1024_S1024x2_S2048x2_1_0_0_1_n_n.rhsIdx_val_of_single rfl _ _).trans hk
    | ⟨1, _⟩ => exact rhsB_1 _ _)
  rw [el, er]

/-! ## The layout operations at an index -/

/-- The stacked row `[u, w]` at a position in its first half … -/
theorem stacked_left (u w : FVec Ideal S2048x16 .f32) (p : Fin 2048) (k : Fin 16) :
    concatenate S2048x32 1 [⟨S2048x16, u⟩, ⟨S2048x16, w⟩] concatenates_S2048x16_S2048x16_S2048x32_d1 (ix2 p (⟨k.val, by omega⟩ : Fin 32)) = u (ix2 p k) :=
  concatenate_pair_apply_left (1 : Fin S2048x32.rank) u w concatenates_S2048x16_S2048x16_S2048x32_d1 _ rfl (ix2 p k)
    (fun b => match b with | ⟨0, _⟩ => rfl | ⟨1, _⟩ => rfl)

/-- … and in its second half. -/
theorem stacked_right (u w : FVec Ideal S2048x16 .f32) (p : Fin 2048) (k : Fin 16) :
    concatenate S2048x32 1 [⟨S2048x16, u⟩, ⟨S2048x16, w⟩] concatenates_S2048x16_S2048x16_S2048x32_d1 (ix2 p (⟨16 + k.val, by omega⟩ : Fin 32)) = w (ix2 p k) :=
  concatenate_pair_apply_right (1 : Fin S2048x32.rank) u w concatenates_S2048x16_S2048x16_S2048x32_d1 _ rfl rfl (ix2 p k)
    (fun b hb => match b, hb with | ⟨0, _⟩, _ => rfl | ⟨1, _⟩, hb => absurd rfl hb)
    (by show k.val + 16 = 16 + k.val; omega)

/-- A sum over 32 positions is the sum over the first 16 plus the sum over the last 16. -/
theorem sum_halves (f : Fin 32 → EReal) :
    ∑ j : Fin 32, f j = ∑ k : Fin 16, f ⟨k.val, by omega⟩ + ∑ k : Fin 16, f ⟨16 + k.val, by omega⟩ :=
  Fin.sum_univ_add (a := 16) (b := 16) f

/-- A per-centre row vector broadcast down the 2048 rows. -/
theorem rows_apply (r : FVec Ideal S1x1024 .f32) (p : Fin 2048) (m : Fin 1024) :
    broadcastTo S2048x1024 r broadcasts_S1x1024_S2048x1024 (ix2 p m) = r (ix2 (0 : Fin 1) m) :=
  broadcastTo_apply r broadcasts_S1x1024_S2048x1024 (ix2 p m) (ix2 (0 : Fin 1) m) (fun a => match a with
    | ⟨0, _⟩ => by show (0 : Nat) = if (1 : Nat) = 1 then 0 else _; rw [if_pos rfl]
    | ⟨1, _⟩ => by show m.val = if (1024 : Nat) = 1 then 0 else m.val; rw [if_neg (by decide)])

/-- The numerator's column of the two-column product … -/
theorem column0_apply (y : FVec Ideal S2048x2 .f32) (p : Fin 2048) :
    extractStridedSlice S2048x1 ![0, 0] y slices_S2048x2_o0_0_S2048x1 (ix2 p (0 : Fin 1)) = y (ix2 p (0 : Fin 2)) :=
  extractStridedSlice_apply ![0, 0] y slices_S2048x2_o0_0_S2048x1 (ix2 p (0 : Fin 1)) (ix2 p (0 : Fin 2)) (fun a => match a with
    | ⟨0, _⟩ => by show p.val = 0 + p.val; omega
    | ⟨1, _⟩ => rfl)

/-- … and the denominator's. -/
theorem column1_apply (y : FVec Ideal S2048x2 .f32) (p : Fin 2048) :
    extractStridedSlice S2048x1 ![0, 1] y slices_S2048x2_o0_1_S2048x1 (ix2 p (0 : Fin 1)) = y (ix2 p (1 : Fin 2)) :=
  extractStridedSlice_apply ![0, 1] y slices_S2048x2_o0_1_S2048x1 (ix2 p (0 : Fin 1)) (ix2 p (1 : Fin 2)) (fun a => match a with
    | ⟨0, _⟩ => by show p.val = 0 + p.val; omega
    | ⟨1, _⟩ => rfl)

/-- The exponential of a vector at an index. -/
theorem exp_at {s : Shape} (v : FVec Ideal s .f32) (i : s.Idx) : exp v i = Ideal.exp (v i) := rfl

/-! ## The store at a row -/

/-- One bump as the body computes it from its loads: the prefactor row `x3`, the centres' own terms `x5`, and the
    length-32 contraction against the prepared matrix `x1`, split at 16. -/
def bodyWeight (x0 : Vec Ideal S2048x16 .f32) (x1 : Vec Ideal S32x1024 .bf16) (x3 x5 : Vec Ideal S1x1024 .f32)
    (p : Fin 2048) (m : Fin 1024) : EReal :=
  weight (x3 (ix2 (0 : Fin 1) m)) (x5 (ix2 (0 : Fin 1) m))
    (∑ k : Fin 16, (x0 (ix2 p k) * x0 (ix2 p k)) * x1 (ix2 (⟨k.val, by omega⟩ : Fin 32) m)
      + ∑ k : Fin 16, x0 (ix2 p k) * x1 (ix2 (⟨16 + k.val, by omega⟩ : Fin 32) m))

/-- THE STORE AT ROW `p`: the quotient of the two centre sums. -/
theorem store_at (x0 : Vec Ideal S2048x16 .f32) (x1 : Vec Ideal S32x1024 .bf16) (x3 x5 : Vec Ideal S1x1024 .f32)
    (x7 : Vec Ideal S1024x2 .f32) (p : Fin 2048) :
    k0_pay1 (F := Ideal) x0 x1 x3 x5 x7 (ix2 p (0 : Fin 1))
      = Ideal.div (∑ m : Fin 1024, bodyWeight x0 x1 x3 x5 p m * x7 (ix2 m (0 : Fin 2)))
          (∑ m : Fin 1024, bodyWeight x0 x1 x3 x5 p m * x7 (ix2 m (1 : Fin 2))) := by
  unfold k0_pay1
  simp only [shapeCast_self, divf_apply, column0_apply, column1_apply, productB_apply, mulf_apply, exp_at,
    broadcast_apply, addf_apply, rows_apply, productA_apply, truncf_apply, sum_halves, stacked_left, stacked_right,
    Ideal.ofBits_def]
  rfl

end Cert.Mixture.Body

end
-- ==== Proof.CrossTermLaw.lean ====
/-
  The one algebraic law that joins the two programs. For a sample `x` and a centre `c` with reciprocal variances
  `v`, the squared distance  Σₖ (xₖ - cₖ)² vₖ  is expanded as  Σₖ xₖ² vₖ  -  2 Σₖ xₖ (cₖ vₖ)  +  Σₖ cₖ² vₖ.  The
  reference subtracts twice the cross sum; the kernel folds the factor -2 into the second operand and adds, in one
  contraction of twice the length. On the extended reals the factor -2 moves across a sum only when the summands carry
  no opposite infinities: here every summand is a real number, and the law is the reals' distributivity.
-/
import Idealize.ShloMosaic.PureOps.Ideal

noncomputable section

open scoped BigOperators

namespace Cert.Mixture

/-- The embedding of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of real terms with the factor `-2` inside each is minus twice the sum. -/
theorem sum_mul_neg_two {ι : Type*} [Fintype ι] (x b : ι → EReal)
    (hx : ∀ k, ∃ r : ℝ, x k = (r : EReal)) (hb : ∀ k, ∃ r : ℝ, b k = (r : EReal)) :
    ∑ k, x k * (((-2 : ℝ) : EReal) * b k) = -(((2 : ℝ) : EReal) * ∑ k, x k * b k) := by
  choose xr hxr using hx
  choose br hbr using hb
  simp only [hxr, hbr, ← EReal.coe_mul, ← coe_sum, ← EReal.coe_neg]
  congr 1
  rw [Finset.mul_sum, ← Finset.sum_neg_distrib]
  exact Finset.sum_congr rfl fun k _ => by ring

/-- THE LAW. With `a` the sum of the squared terms (the same on both sides), real samples `x` and real products
    `b = c · v`: the kernel's  a + Σ x (-2 b)  is the reference's  a - 2 Σ x b. -/
theorem fused_eq_expanded {ι : Type*} [Fintype ι] (a : EReal) (x b : ι → EReal)
    (hx : ∀ k, ∃ r : ℝ, x k = (r : EReal)) (hb : ∀ k, ∃ r : ℝ, b k = (r : EReal)) :
    a + ∑ k, x k * (((-2 : ℝ) : EReal) * b k) = a - ((2 : ℝ) : EReal) * ∑ k, x k * b k := by
  rw [sum_mul_neg_two x b hx hb, sub_eq_add_neg]

end Cert.Mixture

end
-- ==== Proof.Literals.lean ====
/-
  The float literals whose VALUES the argument uses, as extended reals: 1.0 (the numerator of the reciprocal
  variance), 2.0 and -2.0 (the factor of the cross term, as the reference and the kernel spell it), and the
  +infinity pattern that the precondition compares absolute values with. Every other literal occurs as the
  same word on both sides and is never evaluated.
-/
import Idealize.ShloMosaic.PureOps.Ideal

noncomputable section

namespace Cert.Mixture.Literals

open Idealize.ShloMosaic

/-- The pattern of `1.0` denotes the real `1`. -/
theorem one : Ideal.ofBits .f32 0x3F800000#32 = ((1 : ℝ) : EReal) := by
  simp [Ideal.ofBits, Ideal.ieee, -EReal.coe_mul]; norm_num

/-- The pattern of `2.0` denotes the real `2`. -/
theorem two : Ideal.ofBits .f32 0x40000000#32 = ((2 : ℝ) : EReal) := by
  simp [Ideal.ofBits, Ideal.ieee, -EReal.coe_mul]; norm_num

/-- The pattern of `-2.0` denotes the real `-2`. -/
theorem neg_two : Ideal.ofBits .f32 0xC0000000#32 = ((-2 : ℝ) : EReal) := by
  simp [Ideal.ofBits, Ideal.ieee, -EReal.coe_mul]; norm_num

/-- The pattern `0x7F800000` denotes `+∞`. -/
theorem inf : Ideal.ofBits .f32 0x7F800000#32 = ⊤ := by
  simp [Ideal.ofBits, Ideal.ieee]

end Cert.Mixture.Literals

end
-- ==== Proof.Bridge.lean ====
/-
  THE BODY'S ROW IS THE SPECIFICATION'S ENTRY. Let the body's loads be what the region stages: 2048 rows of the
  samples, the prepared matrix  [v ; -2 c v]  transposed, the prefactors and the centres' own terms as rows, and the
  coefficients beside a column of ones. Then the stored quotient at a row is `Mixture.G` at the corresponding sample:
  the length-32 contraction is the squared sum plus the cross sum with -2 inside, which the law of the cross term
  turns into the reference's  squared sum - 2 · cross sum  (samples, centres and reciprocal variances being real);
  and the denominator's products with the ones are the bumps themselves.
-/
import proofs.«103769_j67473936220763_2_alg».proof.Proof.BodyReading
import proofs.«103769_j67473936220763_2_alg».proof.Proof.CrossTermLaw
import proofs.«103769_j67473936220763_2_alg».proof.Proof.Literals

noncomputable section

open scoped BigOperators

namespace Cert.Mixture.Body

open Idealize.ShloMosaic Idealize.ShloMosaic.ValueIdx Cert.KernelIdeal Cert.KernelIdeal.Gen

/-- A product of two real numbers is a real number. -/
theorem real_mul {a b : EReal} (ha : ∃ r : ℝ, a = (r : EReal)) (hb : ∃ r : ℝ, b = (r : EReal)) : ∃ r : ℝ, a * b = (r : EReal) := by
  obtain ⟨r, rfl⟩ := ha
  obtain ⟨s, rfl⟩ := hb
  exact ⟨r * s, (EReal.coe_mul r s).symm⟩

theorem block_value
    (x0 : Vec Ideal S2048x16 .f32) (x1 : Vec Ideal S32x1024 .bf16) (x3 x5 : Vec Ideal S1x1024 .f32) (x7 : Vec Ideal S1024x2 .f32)
    (x : SX.Idx → EReal) (cc v : SC.Idx → EReal) (g q : SM.Idx → EReal) (w : SW.Idx → EReal)
    (y : S2048x1.Idx) (i : SO.Idx)
    (h0 : ∀ k : Fin 16, x0 (ix2 (y 0) k) = x (ix2 (i 0) k))
    (h1a : ∀ (k : Fin 16) (m : Fin 1024), x1 (ix2 (⟨k.val, by omega⟩ : Fin 32) m) = v (ix2 m k))
    (h1b : ∀ (k : Fin 16) (m : Fin 1024), x1 (ix2 (⟨16 + k.val, by omega⟩ : Fin 32) m)
        = Ideal.ofBits .f32 0xC0000000#32 * (cc (ix2 m k) * v (ix2 m k)))
    (h3 : ∀ m : Fin 1024, x3 (ix2 (0 : Fin 1) m) = g (ix1 m))
    (h5 : ∀ m : Fin 1024, x5 (ix2 (0 : Fin 1) m) = q (ix1 m))
    (h7a : ∀ m : Fin 1024, x7 (ix2 m (0 : Fin 2)) = w (ix2 m (i 1)))
    (h7b : ∀ m : Fin 1024, x7 (ix2 m (1 : Fin 2)) = Ideal.ofBits .f32 0x3F800000#32)
    (hx : ∀ j, ∃ r : ℝ, x j = (r : EReal)) (hc : ∀ j, ∃ r : ℝ, cc j = (r : EReal)) (hv : ∀ j, ∃ r : ℝ, v j = (r : EReal)) :
    k0_pay1 (F := Ideal) x0 x1 x3 x5 x7 y = G x cc v g q w i := by
  obtain ⟨p, z, rfl⟩ : ∃ (p : Fin 2048) (z : Fin 1), y = ix2 p z := ⟨y 0, y 1, eq_ix2 y⟩
  obtain rfl : z = 0 := Subsingleton.elim _ _
  have h0' : ∀ k : Fin 16, x0 (ix2 p k) = x (ix2 (i 0) k) := h0
  have hw : ∀ m : Fin 1024, bodyWeight x0 x1 x3 x5 p m = weight (g (ix1 m)) (q (ix1 m)) (dist x cc v (i 0) m) := fun m => by
    unfold bodyWeight dist sq cross twoLit
    simp only [h0', h1a, h1b, h3, h5]
    rw [Literals.neg_two, Literals.two,
      fused_eq_expanded _ (fun k : Fin 16 => x (ix2 (i 0) k)) (fun k : Fin 16 => cc (ix2 m k) * v (ix2 m k))
        (fun k => hx _) (fun k => real_mul (hc _) (hv _))]
  rw [store_at]
  simp only [hw, h7a, h7b, Literals.one, EReal.coe_one, mul_one]
  rfl

end Cert.Mixture.Body

end
-- ==== Proof.PreparedArrays.lean ====
/-
  THE ARRAYS THE KERNEL'S REGION FINDS. Before the region the host prepares four arrays from the arguments: the
  32 × 1024 matrix whose upper half is the reciprocal variances transposed and whose lower half is  -2 · c · v
  transposed; the prefactors and the centres' own squared terms as rows of length 1024; and the coefficients with a
  column of ones beside them. The reciprocal variances, prefactors and squared terms are computed by the very
  operations the reference uses for its stages 15, 13 and 24, so they are stated as those stages of the arguments.
-/
import proofs.«103769_j67473936220763_2_alg».proof.Proof.Gen.KernelIdeal.Frame
import proofs.«103769_j67473936220763_2_alg».proof.Proof.Gen.ReferenceIdeal.Read
import Idealize.ShloMosaic.Lib.StableHlo.Run
import Idealize.ShloMosaic.Lib.Pipeline.Value
import Idealize.ShloMosaic.Lib.ValueIdx

noncomputable section

namespace Cert.Mixture.Prepared

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ) (c : Dev nD)

/-- The argument arrays as launched: samples, centres, widths, coefficients, the two resolutions. -/
abbrev argX : S131072x16.Idx → EReal := m ((c : Thread nD τ).loc main_arg0)
abbrev argC : S1024x16.Idx → EReal := m ((c : Thread nD τ).loc main_arg1)
abbrev argW : S1024x16.Idx → EReal := m ((c : Thread nD τ).loc main_arg2)
abbrev argCo : S1024x1.Idx → EReal := m ((c : Thread nD τ).loc main_arg3)
abbrev argRc : S16.Idx → EReal := m ((c : Thread nD τ).loc main_arg4)
abbrev argRs : S16.Idx → EReal := m ((c : Thread nD τ).loc main_arg5)

/-- The reciprocal variances, the prefactors and the centres' own squared terms, as functions of the arguments. -/
abbrev recipVar : S1024x16.Idx → EReal :=
  Cert.ReferenceIdeal.Read.val_main_v15 (F := Ideal) (argC m c) (argW m c) (argRc m c) (argRs m c)
abbrev prefactor : S1024.Idx → EReal :=
  Cert.ReferenceIdeal.Read.val_main_v13 (F := Ideal) (argC m c) (argW m c) (argRc m c) (argRs m c)
abbrev ownTerm : S1024.Idx → EReal :=
  Cert.ReferenceIdeal.Read.val_main_v24 (F := Ideal) (argC m c) (argW m c) (argRc m c) (argRs m c)

/-- The coefficients with the column of ones. -/
theorem coeffs_eq : (V m c main_v29 : S1024x2.Idx → EReal)
    = concatenate S1024x2 1 [⟨S1024x1, argCo m c⟩, ⟨S1024x1, broadcastInDim S1024x1 ![] bcast_S_S1024x1 (constant (F := Ideal) S_ .f32 0x3F800000#32)⟩]
        concatenates_S1024x1_S1024x1_S1024x2_d1 := by
  dsimp only [Gen.V, Gen.hostOps0]; after_results; try rfl

set_option maxHeartbeats 4000000 in
set_option maxRecDepth 8192 in
/-- The prefactors as a row. -/
theorem prefactor_eq : (V m c main_v26 : S1x1024.Idx → EReal) = shapeCast S1x1024 (prefactor m c) shapeCasts_S1024_S1x1024 := by
  dsimp only [Gen.V, Gen.hostOps0]; after_results; try rfl

set_option maxHeartbeats 4000000 in
set_option maxRecDepth 8192 in
/-- The centres' own squared terms as a row. -/
theorem ownTerm_eq : (V m c main_v27 : S1x1024.Idx → EReal) = shapeCast S1x1024 (ownTerm m c) shapeCasts_S1024_S1x1024 := by
  dsimp only [Gen.V, Gen.hostOps0]; after_results; try rfl

set_option maxHeartbeats 4000000 in
set_option maxRecDepth 8192 in
/-- The prepared matrix: the reciprocal variances transposed, stacked on  -2 · c · v  transposed. -/
theorem matrix_eq : (V m c main_v25 : S32x1024.Idx → EReal)
    = truncf .bf16 (concatenate S32x1024 0
        [⟨S16x1024, transpose S16x1024 [1, 0] (recipVar m c) transposes_S1024x16_S16x1024_1_0⟩,
         ⟨S16x1024, transpose S16x1024 [1, 0]
            (mulf (broadcastInDim S1024x16 ![] bcast_S_S1024x16 (constant (F := Ideal) S_ .f32 0xC0000000#32))
              (mulf (argC m c) (recipVar m c))) transposes_S1024x16_S16x1024_1_0⟩]
        concatenates_S16x1024_S16x1024_S32x1024_d0) bitsLt_bf16_f32 := by
  dsimp only [Gen.V, Gen.hostOps0]; after_results; try rfl

end Cert.Mixture.Prepared

end
-- ==== Proof.PreparedReading.lean ====
/-
  THE PREPARED ARRAYS AT AN INDEX. Row `k` of the prepared matrix's upper half holds the reciprocal variances of
  feature `k`; row `16 + k` of its lower half holds  -2 · c · v  of feature `k`; the two rows of length 1024 hold
  the prefactors and the centres' own terms; the two-column array holds the coefficients and the ones.
-/
import proofs.«103769_j67473936220763_2_alg».proof.Proof.PreparedArrays

noncomputable section

namespace Cert.Mixture.Prepared

open Idealize.ShloMosaic Idealize.ShloMosaic.TcCoe Idealize.SL.Sem
open Idealize.ShloMosaic.ValueIdx Cert.KernelIdeal Cert.KernelIdeal.Gen

variable (m : (ℓ : Loc nD τ sig) → Buf (Elt Ideal) ℓ) (c : Dev nD)

/-- The first column is the coefficients … -/
theorem coeffs_at (m' : Fin 1024) :
    (V m c main_v29 : S1024x2.Idx → EReal) (ix2 m' (0 : Fin 2)) = argCo m c (ix2 m' (0 : Fin 1)) :=
  (congrFun (coeffs_eq m c) _).trans
    (concatenate_pair_apply_left (1 : Fin S1024x2.rank) _ _ concatenates_S1024x1_S1024x1_S1024x2_d1 _ rfl (ix2 m' (0 : Fin 1))
      (fun b => match b with | ⟨0, _⟩ => rfl | ⟨1, _⟩ => rfl))

/-- … and the second column is the ones. -/
theorem ones_at (m' : Fin 1024) :
    (V m c main_v29 : S1024x2.Idx → EReal) (ix2 m' (1 : Fin 2)) = Ideal.ofBits .f32 0x3F800000#32 :=
  (congrFun (coeffs_eq m c) _).trans
    ((concatenate_pair_apply_right (1 : Fin S1024x2.rank) _ _ concatenates_S1024x1_S1024x1_S1024x2_d1 _ rfl rfl (ix2 m' (0 : Fin 1))
      (fun b hb => match b, hb with | ⟨0, _⟩, _ => rfl | ⟨1, _⟩, hb => absurd rfl hb)
      (by show (0 : Nat) + 1 = 1; rfl)).trans rfl)

/-- The prefactor row. -/
theorem prefactor_at (m' : Fin 1024) :
    (V m c main_v26 : S1x1024.Idx → EReal) (ix2 (0 : Fin 1) m') = prefactor m c (ix1 m') :=
  (congrFun (prefactor_eq m c) _).trans
    (shapeCast_apply (prefactor m c) shapeCasts_S1024_S1x1024 (ix2 (0 : Fin 1) m') (ix1 m') (by
      rw [Shape.rowMajor_val_one, Shape.rowMajor_val_two]
      show m'.val = 0 * 1024 + m'.val
      omega))

/-- The row of the centres' own terms. -/
theorem ownTerm_at (m' : Fin 1024) :
    (V m c main_v27 : S1x1024.Idx → EReal) (ix2 (0 : Fin 1) m') = ownTerm m c (ix1 m') :=
  (congrFun (ownTerm_eq m c) _).trans
    (shapeCast_apply (ownTerm m c) shapeCasts_S1024_S1x1024 (ix2 (0 : Fin 1) m') (ix1 m') (by
      rw [Shape.rowMajor_val_one, Shape.rowMajor_val_two]
      show m'.val = 0 * 1024 + m'.val
      omega))

/-- The upper half of the prepared matrix: the reciprocal variances, transposed. -/
theorem matrix_upper (k : Fin 16) (m' : Fin 1024) :
    (V m c main_v25 : S32x1024.Idx → EReal) (ix2 (⟨k.val, by omega⟩ : Fin 32) m') = recipVar m c (ix2 m' k) :=
  (congrFun (matrix_eq m c) _).trans
    ((concatenate_pair_apply_left (0 : Fin S32x1024.rank) _ _ concatenates_S16x1024_S16x1024_S32x1024_d0 _ rfl (ix2 k m')
        (fun b => match b with | ⟨0, _⟩ => rfl | ⟨1, _⟩ => rfl)).trans
      (transpose_apply [1, 0] (recipVar m c) transposes_S1024x16_S16x1024_1_0 (ix2 k m') (ix2 m' k)
        (fun b => match b with | ⟨0, _⟩ => rfl | ⟨1, _⟩ => rfl)))

/-- The lower half: `-2` times the centre times the reciprocal variance, transposed. -/
theorem matrix_lower (k : Fin 16) (m' : Fin 1024) :
    (V m c main_v25 : S32x1024.Idx → EReal) (ix2 (⟨16 + k.val, by omega⟩ : Fin 32) m')
      = Ideal.ofBits .f32 0xC0000000#32 * (argC m c (ix2 m' k) * recipVar m c (ix2 m' k)) :=
  (congrFun (matrix_eq m c) _).trans
    ((concatenate_pair_apply_right (0 : Fin S32x1024.rank) _ _ concatenates_S16x1024_S16x1024_S32x1024_d0 _ rfl rfl (ix2 k m')
        (fun b hb => match b, hb with | ⟨0, _⟩, hb => absurd rfl hb | ⟨1, _⟩, _ => rfl)
        (by show k.val + 16 = 16 + k.val; omega)).trans
      ((transpose_apply [1, 0] _ transposes_S1024x16_S16x1024_1_0 (ix2 k m') (ix2 m' k)
        (fun b => match b with | ⟨0, _⟩ => rfl | ⟨1, _⟩ => rfl)).trans rfl))

end Cert.Mixture.Prepared

end
-- ==== Proof.Domain.lean ====
/-
  WHAT THE PRECONDITION GIVES. It is a conjunction of seven `all`s: six say that an argument's absolute values are
  below +∞, the seventh that every variance  w² + r² + (c·s)²  is above zero. The law that joins the two programs
  needs three facts, and they follow from three of the conjuncts: every sample is a real number, every centre
  coordinate is a real number, and every reciprocal variance is a real number — the last because the reciprocal of a
  nonzero extended real (an infinity included) is real. Where a variance is zero its reciprocal is +∞, opposite
  infinities meet in the cross sum, and the two programs part: that is the point the seventh conjunct excludes.
-/
import proofs.«103769_j67473936220763_2_alg».proof.Pre_finite_inputs
import proofs.«103769_j67473936220763_2_alg».proof.Proof.Gen.Pre_finite_inputs
import proofs.«103769_j67473936220763_2_alg».proof.Proof.Gen.ReferenceIdeal.Read
import proofs.«103769_j67473936220763_2_alg».proof.Proof.Literals
import Idealize.ShloMosaic.Lib.ReduceAll
import Idealize.ShloMosaic.Lib.Affine
import Idealize.ShloMosaic.Lib.ValueIdx
import Idealize.ShloMosaic.PureOps.Ideal.Laws

noncomputable section

namespace Cert.Mixture.Domain

open Idealize.ShloMosaic Idealize.ShloMosaic.ValueIdx Cert.Pre_finite_inputs

instance : Subsingleton S_.Idx := ⟨fun _ _ => funext fun d => d.elim0⟩

/-! ## Words and extended reals -/

theorem ofBool_eq_one (b : Bool) : BitVec.ofBool b = 1#1 ↔ b = true := by cases b <;> decide

/-- A comparison "less than" that answered 1 is the order's. -/
theorem lt_of_cmp_olt {x y : EReal} (h : Ideal.cmp .olt x y = 1#1) : x < y :=
  of_decide_eq_true ((ofBool_eq_one _).1 h)

/-- A comparison "greater than" that answered 1 is the order's. -/
theorem lt_of_cmp_ogt {x y : EReal} (h : Ideal.cmp .ogt x y = 1#1) : y < x :=
  of_decide_eq_true ((ofBool_eq_one _).1 h)

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The reciprocal  1 / y  of a positive extended real is a real number (zero when `y` is +∞). -/
theorem real_recip (y : EReal) (hy : 0 < y) : ∃ r : ℝ, Ideal.div (Ideal.ofBits .f32 0x3F800000#32) y = (r : EReal) := by
  unfold Ideal.div
  rw [if_neg hy.ne', Literals.one]
  induction y using EReal.rec with
  | bot => simp at hy
  | coe r => exact ⟨1 * r⁻¹, by rw [EReal.coe_mul, EReal.coe_inv]⟩
  | top => exact ⟨0, by simp⟩

/-! ## The precondition, conjunct by conjunct -/

variable (X : FVec Ideal S131072x16 .f32) (C W : FVec Ideal S1024x16 .f32) (Co : FVec Ideal S1024x1 .f32) (RC RS : FVec Ideal S16 .f32)

/-- The variances, as the reference's stage 9 of the centres, widths and resolutions: the precondition computes
    them by the same operations. -/
abbrev variance : S1024x16.Idx → EReal := Cert.ReferenceIdeal.Read.val_main_v9 (F := Ideal) C W RC RS

theorem of_pre (h : fn (F := Ideal) X C W Co RC RS = fun _ => 1#1) :
    (∀ i, ∃ r : ℝ, X i = (r : EReal)) ∧ (∀ i, ∃ r : ℝ, C i = (r : EReal)) ∧ ∀ i, (0 : EReal) < variance C W RC RS i := by
  have e := congrFun h ix0
  unfold fn fn_part1 fn_part2 at e
  dsimp only at e
  obtain ⟨e5, h6⟩ := IntOp.andi_eq_one.1 e
  obtain ⟨e4, -⟩ := IntOp.andi_eq_one.1 e5
  obtain ⟨e3, -⟩ := IntOp.andi_eq_one.1 e4
  obtain ⟨e2, -⟩ := IntOp.andi_eq_one.1 e3
  obtain ⟨e1, -⟩ := IntOp.andi_eq_one.1 e2
  obtain ⟨h0, h1⟩ := IntOp.andi_eq_one.1 e1
  refine ⟨fun i => ?_, fun i => ?_, fun i => ?_⟩
  · have hlt : max (X i) (-(X i)) < Ideal.ofBits .f32 0x7F800000#32 :=
      lt_of_cmp_olt (Host.reduce_andi_all _ _ _ _ ix0 h0 i)
    rw [Literals.inf] at hlt
    exact real_of_abs_lt_top _ hlt
  · have hlt : max (C i) (-(C i)) < Ideal.ofBits .f32 0x7F800000#32 :=
      lt_of_cmp_olt (Host.reduce_andi_all _ _ _ _ ix0 h1 i)
    rw [Literals.inf] at hlt
    exact real_of_abs_lt_top _ hlt
  · have hlt : Ideal.ofBits .f32 0x00000000#32 < variance C W RC RS i :=
      lt_of_cmp_ogt (Host.reduce_andi_all _ _ _ _ ix0 h6 i)
    rwa [Ideal.ofBits_zero_f32] at hlt

end Cert.Mixture.Domain

end
-- ==== Proof.BlocksToArray.lean ====
/-
  FROM BLOCKS TO THE ARRAY. The grid has 64 points; point `t` stages rows  2048 t … 2048 t + 2047  of the samples
  and the whole of each prepared array, and writes back rows  2048 t … 2048 t + 2047  of the result. What it writes
  is the specification restricted to those rows (the bridge, row by row); the 64 blocks tile the 131072 rows, the
  block of row `r` being point  r / 2048;  so after the run the result array is the specification.
-/
import proofs.«103769_j67473936220763_2_alg».proof.Proof.Gen.KernelIdeal.Value
import proofs.«103769_j67473936220763_2_alg».proof.Proof.Bridge
import proofs.«103769_j67473936220763_2_alg».proof.Proof.PreparedReading
import proofs.«103769_j67473936220763_2_alg».proof.Proof.Domain

set_option maxRecDepth 16384

noncomputable section

namespace Cert.Mixture.Kernel

open Idealize.ShloMosaic Idealize.ShloMosaic.TcCoe Idealize.SL.Sem
open Idealize.ShloMosaic.Pipeline (Dat)
open Idealize.ShloMosaic.ValueIdx Cert.KernelIdeal Cert.KernelIdeal.Gen Cert.Mixture.Prepared

variable (m : (ℓ : Loc nD τ sig) → Buf (Elt Ideal) ℓ) (ρ : Dev nD → PrngReg)

theorem hz : (![0, 0] : Fin 2 → Nat) = fun _ => 0 := funext fun a => by fin_cases a <;> rfl

/-- The result as the specification of the argument arrays. -/
abbrev result (c : Dev nD) : S131072x1.Idx → EReal :=
  G (argX m c) (argC m c) (recipVar m c) (prefactor m c) (ownTerm m c) (argCo m c)

/-- The printed index maps over the grid: the samples' and the result's blocks move with the point along the rows,
    every other block stays at the origin. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at a point -/

/-- The samples' block at point `t` is rows `2048 t …` of the samples. -/
theorem samples_block (c : Dev nD) (t : Fin cfg0.N) (y : S2048x16.Idx) (k : S131072x16.Idx)
    (hk0 : (k 0).val = 2048 * t.val + (y 0).val) (hk1 : (k 1).val = (y 1).val) :
    (iblk m c 0 t : Vec Ideal S2048x16 .f32) y = argX m c k := by
  obtain ⟨e0, e1, -⟩ := index_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 2048 + 1 * (y 0).val = (k 0).val; rw [e0, hk0]; omega
  | ⟨1, _⟩ => show win0_0.index t (1 : Fin 2) * 16 + 1 * (y 1).val = (k 1).val; rw [e1, hk1]; omega

/-- The prepared matrix is staged whole at every point. -/
theorem matrix_block (c : Dev nD) (t : Fin cfg0.N) (y : S32x1024.Idx) :
    (iblk m c 1 t : Vec Ideal S32x1024 .bf16) y = (V m c main_v25 : S32x1024.Idx → EReal) y := by
  obtain ⟨-, -, e0, e1, -⟩ := index_facts t
  unfold iblk
  rw [View.read_apply]
  show V m c main_v25 _ = V m c main_v25 y
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 1024 + 1 * (y 1).val = (y 1).val; rw [e1]; omega

/-- So is the prefactor row, … -/
theorem prefactor_block (c : Dev nD) (t : Fin cfg0.N) (y : S1x1024.Idx) :
    (iblk m c 2 t : Vec Ideal S1x1024 .f32) y = (V m c main_v26 : S1x1024.Idx → EReal) y := by
  obtain ⟨-, -, -, -, e0, e1, -⟩ := index_facts t
  unfold iblk
  rw [View.read_apply]
  show V m c main_v26 _ = V m c main_v26 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- … the row of the centres' own terms, … -/
theorem ownTerm_block (c : Dev nD) (t : Fin cfg0.N) (y : S1x1024.Idx) :
    (iblk m c 3 t : Vec Ideal S1x1024 .f32) y = (V m c main_v27 : S1x1024.Idx → EReal) y := by
  obtain ⟨-, -, -, -, -, -, e0, e1, -⟩ := index_facts t
  unfold iblk
  rw [View.read_apply]
  show V m c main_v27 _ = V m c main_v27 y
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 1024 + 1 * (y 1).val = (y 1).val; rw [e1]; omega

/-- … and the coefficients with their ones. -/
theorem coeffs_block (c : Dev nD) (t : Fin cfg0.N) (y : S1024x2.Idx) :
    (iblk m c 4 t : Vec Ideal S1024x2 .f32) y = (V m c main_v29 : S1024x2.Idx → EReal) y := by
  obtain ⟨-, -, -, -, -, -, -, -, e0, e1, -⟩ := index_facts t
  unfold iblk
  rw [View.read_apply]
  show V m c main_v29 _ = V m c main_v29 y
  congr 1
  funext a
  apply Fin.ext
  match a with
  | ⟨0, _⟩ => show win0_4.index t (0 : Fin 2) * 1024 + 1 * (y 0).val = (y 0).val; rw [e0]; omega
  | ⟨1, _⟩ => show win0_4.index t (1 : Fin 2) * 2 + 1 * (y 1).val = (y 1).val; rw [e1]; omega

/-! ## What a point writes back -/

/-- The three facts the law needs, of the arguments on core `c`. -/
structure Reals (c : Dev nD) : Prop where
  samples : ∀ j, ∃ r : ℝ, argX m c j = (r : EReal)
  centres : ∀ j, ∃ r : ℝ, argC m c j = (r : EReal)
  recips : ∀ j, ∃ r : ℝ, recipVar m c j = (r : EReal)

/-- POINT `t` WRITES BACK rows `2048 t …` of the specification. -/
theorem flushed_eq (c : Dev nD) (hR : Reals m c) (t : Fin cfg0.N) :
    (dats m 0 c).flushed 5 t = ((cfg0.win 5).blk t).view.read (Elt Ideal) (result m c) := by
  rw [Cert.KernelIdeal.Value.flushed5]
  unfold out0_5
  rw [View.canon_unit_zero hz]
  simp only [View.ld_unit_zero (S := S2048x16) hz, View.ld_unit_zero (S := S32x1024) hz,
    View.ld_unit_zero (S := S1x1024) hz, View.ld_unit_zero (S := S1024x2) hz]
  obtain ⟨-, -, -, -, -, -, -, -, -, -, e0, e1⟩ := index_facts t
  funext y
  show k0_pay1 (F := Ideal) (iblk m c 0 t) (iblk m c 1 t) (iblk m c 2 t) (iblk m c 3 t) (iblk m c 4 t) y
      = result m c (((cfg0.win 5).blk t).view.emb y)
  have r0 : ((((cfg0.win 5).blk t).view.emb y) 0).val = 2048 * t.val + (y 0).val := by
    show win0_5.index t (0 : Fin 2) * 2048 + 1 * (y 0).val = _; rw [e0]; omega
  have r1 : ((((cfg0.win 5).blk t).view.emb y) 1).val = 0 := by
    show win0_5.index t (1 : Fin 2) * 1 + 1 * (y 1).val = _; rw [e1]; have hy1 : (y 1).val < 1 := (y 1).isLt; omega
  refine Cert.Mixture.Body.block_value _ _ _ _ _ (argX m c) (argC m c) (recipVar m c) (prefactor m c) (ownTerm m c) (argCo m c)
    y _ ?_ ?_ ?_ ?_ ?_ ?_ ?_ hR.samples hR.centres hR.recips
  · exact fun k => samples_block m c t _ _ r0 rfl
  · exact fun k m' => (matrix_block m c t _).trans (matrix_upper m c k m')
  · exact fun k m' => (matrix_block m c t _).trans (matrix_lower m c k m')
  · exact fun m' => (prefactor_block m c t _).trans (prefactor_at m c m')
  · exact fun m' => (ownTerm_block m c t _).trans (ownTerm_at m c m')
  · intro m'
    refine ((coeffs_block m c t _).trans (coeffs_at m c m')).trans (congrArg (argCo m c) ?_)
    funext a
    match a with
    | ⟨0, _⟩ => rfl
    | ⟨1, _⟩ => exact Fin.ext r1.symm
  · exact fun m' => (coeffs_block m c t _).trans (ones_at m c m')

/-! ## The cover, and the array after the run -/

/-- Every row of the result lies in the block of point  row / 2048. -/
theorem cover (i : S131072x1.Idx) : ∃ t : Fin cfg0.N, (cfg0.win 5).flush t = true ∧ i ∈ ((cfg0.win 5).blk t).view.set := by
  have hi0 : (i 0).val < 131072 := (i 0).isLt
  have hi1 : (i 1).val < 1 := (i 1).isLt
  have hN : cfg0.N = 64 := N_0
  let t : Fin cfg0.N := ⟨(i 0).val / 2048, by rw [hN]; omega⟩
  obtain ⟨-, -, -, -, -, -, -, -, -, -, e0, e1⟩ := index_facts t
  refine ⟨t, flush0_5 t, ?_⟩
  show i ∈ ((View.whole main_v30).slice (win0_5.rect t)).set
  rw [View.set_slice_whole, Rect.mem_set_unit]
  intro a
  have ht : t.val = (i 0).val / 2048 := rfl
  match a with
  | ⟨0, _⟩ =>
    show win0_5.index t (0 : Fin 2) * 2048 ≤ (i 0).val ∧ (i 0).val < win0_5.index t (0 : Fin 2) * 2048 + 2048
    rw [e0, ht]; omega
  | ⟨1, _⟩ =>
    show win0_5.index t (1 : Fin 2) * 1 ≤ (i 1).val ∧ (i 1).val < win0_5.index t (1 : Fin 2) * 1 + 1
    rw [e1]; omega

/-- THE ARRAY after the run is the specification. -/
theorem final (c : Dev nD) (hR : Reals m c) : (dats m 0 c).arrAt 5 cfg0.N = result m c :=
  (dats m 0 c).arrAt_eq_of_cover 5 (result m c) (fun t _ => flushed_eq m c hR t) cover

/-- The kernel's run with its result named: on every core the result array ends at the specification of the
    arguments, the arguments unchanged. -/
theorem run (hR : ∀ c, Reals m c) :
    θ_run defs (onTc (τ := τ) (main (F := Ideal))) ⟨m, fun _ => 0, ρ⟩ fun r => ∀ c : Dev nD,
      r.2.mem ((c : Thread nD τ).loc main_v30) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hR c)), (h c).2⟩)
    (Cert.KernelIdeal.Value.run_blocks m ρ)

end Cert.Mixture.Kernel

end
-- ==== Proof.lean ====
/-
  A normalised mixture of 1024 Gaussian bumps over 16 features, evaluated at 131072 samples:

      out n = (Σₘ wₘ Kₙₘ) / (Σₘ Kₙₘ),   Kₙₘ = gₘ · exp (-½ · Σₖ (xₙₖ - cₘₖ)² / σ²ₘₖ),   σ²ₘₖ = widthₘₖ² + rₖ² + (cₘₖ sₖ)².

  Both programs expand the squared distance as  Σ x²/σ² - 2 Σ x c/σ² + Σ c²/σ²  and compute the variances, their
  reciprocals, the prefactors `g` and the last sum by the same host operations. They differ in two places. The
  reference takes the first two sums as two matrix products and subtracts twice the second; the kernel stacks
  [x², x]  against  [1/σ² ; -2 c/σ²]  and takes one product of twice the length. The reference normalises by a
  separate sum of the bumps; the kernel multiplies the bumps into  [w | 1]  and divides the two columns. On the
  extended reals the second difference is  K · 1 = K.  The first is the distributivity of -2 over the cross sum,
  which holds because its summands are real numbers: samples and centres are finite by the precondition, and a
  reciprocal variance is real because the variance is positive — the precondition's last conjunct, which keeps the
  reference's own division  1 / σ²  inside its domain (where a variance is zero the reciprocal is +∞, opposite
  infinities meet in the cross sum, and the two programs give different values).

  The modules: Literals and CrossTermLaw (the law, over the reals); Mixture (the specification); ReferenceReading (the
  reference is the specification); BodyReading and Bridge (the kernel body's row is the specification's entry);
  PreparedArrays and PreparedReading (the arrays the region finds); BlocksToArray (the 64 blocks tile the result);
  Domain (what the precondition gives). The frames are the generated ones; the idealization rewrote nothing.
-/
import proofs.«103769_j67473936220763_2_alg».proof.Defs
import proofs.«103769_j67473936220763_2_alg».proof.Proof.Gen.Kernel
import proofs.«103769_j67473936220763_2_alg».proof.Proof.Gen.Kernel.Skeleton
import proofs.«103769_j67473936220763_2_alg».proof.Proof.Gen.Kernel.Launch
import proofs.«103769_j67473936220763_2_alg».proof.Proof.Gen.Kernel.Points
import proofs.«103769_j67473936220763_2_alg».proof.Proof.Gen.Kernel.Frame
import proofs.«103769_j67473936220763_2_alg».proof.Proof.Gen.KernelIdeal
import proofs.«103769_j67473936220763_2_alg».proof.Proof.Gen.KernelIdeal.Skeleton
import proofs.«103769_j67473936220763_2_alg».proof.Proof.Gen.KernelIdeal.Launch
import proofs.«103769_j67473936220763_2_alg».proof.Proof.Gen.KernelIdeal.Points
import proofs.«103769_j67473936220763_2_alg».proof.Proof.Gen.KernelIdeal.Frame
import proofs.«103769_j67473936220763_2_alg».proof.Proof.Gen.KernelIdeal.Value
import proofs.«103769_j67473936220763_2_alg».proof.Proof.Gen.ReferenceIdeal
import proofs.«103769_j67473936220763_2_alg».proof.Proof.Gen.ReferenceIdeal.Run
import proofs.«103769_j67473936220763_2_alg».proof.Proof.Gen.ReferenceIdeal.Read
import proofs.«103769_j67473936220763_2_alg».proof.Proof.Gen.Pre_finite_inputs
import proofs.«103769_j67473936220763_2_alg».proof.Proof.ReferenceReading
import proofs.«103769_j67473936220763_2_alg».proof.Proof.BlocksToArray
import proofs.«103769_j67473936220763_2_alg».proof.Proof.Domain
import Idealize.ShloMosaic.Adequacy
import Idealize.ShloMosaic.Init

noncomputable section

namespace Cert.Proof

open Idealize.ShloMosaic Idealize.ShloMosaic.TcCoe Idealize.SL.Sem

/-- The three frames: the two kernels' are generated whole; the reference's is its generated run, the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Under the precondition the samples, the centres and the reciprocal variances are real on every core. -/
theorem reals_of_pre (m : (ℓ : Loc Cert.KernelIdeal.nD Cert.KernelIdeal.τ Cert.KernelIdeal.sig) → Buf (Elt Ideal) ℓ)
    (h : Cert.Pre_KernelIdeal m) (c : Dev Cert.KernelIdeal.nD) : Cert.Mixture.Kernel.Reals m c := by
  obtain ⟨hx, hc, hv⟩ := Cert.Mixture.Domain.of_pre _ _ _ _ _ _ (h c)
  exact ⟨hx, hc, fun j => Cert.Mixture.Domain.real_recip _ (hv j)⟩

/-- Both runs end with the result array at the specification of arguments that agree. -/
theorem algebraic : Cert.algebraic_KernelIdeal_ReferenceIdeal := by
  intro m ρ m' ρ' hpre hagree
  refine ⟨fun c => Cert.Mixture.Kernel.result m c, Cert.Mixture.Kernel.run m ρ (reals_of_pre m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, Cert.Mixture.Reference.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
